-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S8192x256 : Shape := ⟨2, ![8192, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16384x256 .f32) (main_arg1 : FVec F S8192x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S256x8192 : Shape := ⟨2, ![256, 8192]⟩
abbrev S16384x8192 : Shape := ⟨2, ![16384, 8192]⟩
abbrev S1024x256 : Shape := ⟨2, ![1024, 256]⟩
abbrev S1024x1 : Shape := ⟨2, ![1024, 1]⟩
abbrev S1x2048 : Shape := ⟨2, ![1, 2048]⟩
abbrev S1024x2048 : Shape := ⟨2, ![1024, 2048]⟩
abbrev S256x2048 : Shape := ⟨2, ![256, 2048]⟩

abbrev nBuf : Space → Nat
  | .hbm => 14
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x256, .bf16⟩
  | .hbm, ⟨11, _⟩ => ⟨S256x8192, .f32⟩
  | .hbm, ⟨12, _⟩ => ⟨S256x8192, .bf16⟩
  | .hbm, ⟨13, _⟩ => ⟨S16384x8192, .f32⟩
  | .local _ .vmem, ⟨0, _⟩ => ⟨S1024x256, .bf16⟩
  | .local _ .vmem, ⟨1, _⟩ => ⟨S1024x256, .bf16⟩
  | .local _ .vmem, ⟨2, _⟩ => ⟨S256x8192, .bf16⟩
  | .local _ .vmem, ⟨3, _⟩ => ⟨S1024x1, .f32⟩
  | .local _ .vmem, ⟨4, _⟩ => ⟨S1024x1, .f32⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let c0 : Index := 0#32
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S8192x256_S8192_d1 : S8192x256.ReducesTo [1] S8192
  bcast_S8192_S1x8192_1 : S8192.BroadcastsInDim S1x8192 (![1] : Fin 1 → Fin S1x8192.rank)
  bitsLt_bf16_f32 : FTy.bits .bf16 < FTy.bits .f32
  transposes_S8192x256_S256x8192_1_0 : S8192x256.Transposes [1, 0] S256x8192
  h_S256x2048 : 0 < S256x2048.numel
  shapeCasts_S256x2048_S256x2048 : S256x2048.ShapeCasts S256x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x256_S256x2048_S1024x2048_1_0_0_1_n_n_wf : DotDims.WF S1024x256 S256x2048 S1024x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x2048.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .bf16 = 32 ∨ (Rect.block (s := S16384x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S256x8192.size a
  hwx0_1 : ∀ i : grid0.Coords, EltTy.bits .bf16 = 32 ∨ (Rect.block (s := S256x8192) S256x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S16384x8192.size a
  hwx0_4 : ∀ i : grid0.Coords, EltTy.bits .f32 = 32 ∨ (Rect.block (s := S16384x8192) S1024x2048.size (cc0_transform_4 i) (hinb0_4 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S16384x8192 : Shape := ⟨2, ![16384, 8192]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S16384x8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S16384x8192, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S8192x256_S8192_d1 : S8192x256.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  dot_S16384x256_S8192x256_S16384x8192_1_1_0_0_n_n_wf : DotDims.WF S16384x256 S8192x256 S16384x8192 [1] [1] [0] [0] [] []

variable [Facts₀]

def dot_S16384x256_S8192x256_S16384x8192_1_1_0_0_n_n : DotDims S16384x256 S8192x256 S16384x8192 where
  lhsContracting := [1]
  rhsContracting := [1]
  lhsNonContracting := [0]
  rhsNonContracting := [0]
  lhsBatch := []
  rhsBatch := []
  wf := dot_S16384x256_S8192x256_S16384x8192_1_1_0_0_n_n_wf

class Facts : Prop extends Facts₀ where

variable [Facts]
-- ==== Proof.Spec.lean ====
/-
  The squared Euclidean distance matrix, as one function of four arrays, index by index.

  For row norms `s1 : [16384, 1]`, column norms `s2 : [1, 8192]` and the two point sets `a : [16384, 256]`,
  `b : [8192, 256]`, the entry at `(n, m)` is

      (s1 (n, 0) + s2 (0, m)) - 2 * ∑ k, a (n, k) * b (m, k)

  on the extended reals: the expansion ‖aₙ‖² + ‖bₘ‖² - 2 aₙ·bₘ of ‖aₙ - bₘ‖², with the two squared norms kept as
  arrays of their own. Both programs compute the norms by the same operations on the same arguments, so nothing
  below ever looks inside `s1` or `s2`; only their broadcasting pattern matters — `s1` along a row, `s2` along a
  column. The factor `2` is the f32 word `0x40000000` on both sides and is never evaluated.
-/
import Idealize.ShloMosaic.PureOps.Ideal
import Idealize.ShloMosaic.Lib.ValueIdx

noncomputable section

open scoped BigOperators

namespace Cert.Dist

open Idealize.ShloMosaic Idealize.ShloMosaic.ValueIdx

/-- The factor of the cross term: the f32 word of `2.0`, read at the ideal values. -/
abbrev two : EReal := Ideal.ofBits .f32 0x40000000#32

/-- The entry at row `n`, column `m`: the two squared norms added, minus twice the inner product of row `n` of
    `a` with row `m` of `b`. -/
def distAt (s1 : (⟨2, ![16384, 1]⟩ : Shape).Idx → EReal) (s2 : (⟨2, ![1, 8192]⟩ : Shape).Idx → EReal)
    (a : (⟨2, ![16384, 256]⟩ : Shape).Idx → EReal) (b : (⟨2, ![8192, 256]⟩ : Shape).Idx → EReal)
    (n : Fin 16384) (m : Fin 8192) : EReal :=
  (s1 (ix2 n (0 : Fin 1)) + s2 (ix2 (0 : Fin 1) m)) - two * ∑ k : Fin 256, a (ix2 n k) * b (ix2 m k)

/-- The whole matrix: `distAt` at an index's two coordinates. -/
def dist (s1 : (⟨2, ![16384, 1]⟩ : Shape).Idx → EReal) (s2 : (⟨2, ![1, 8192]⟩ : Shape).Idx → EReal)
    (a : (⟨2, ![16384, 256]⟩ : Shape).Idx → EReal) (b : (⟨2, ![8192, 256]⟩ : Shape).Idx → EReal) :
    (⟨2, ![16384, 8192]⟩ : Shape).Idx → EReal :=
  fun i => distAt s1 s2 a b (i 0) (i 1)

/-- The matrix read at `(n, m)`. -/
theorem dist_ix2 (s1 : (⟨2, ![16384, 1]⟩ : Shape).Idx → EReal) (s2 : (⟨2, ![1, 8192]⟩ : Shape).Idx → EReal)
    (a : (⟨2, ![16384, 256]⟩ : Shape).Idx → EReal) (b : (⟨2, ![8192, 256]⟩ : Shape).Idx → EReal)
    (n : Fin 16384) (m : Fin 8192) : dist s1 s2 a b (ix2 n m) = distAt s1 s2 a b n m := rfl

end Cert.Dist

end
-- ==== Proof.Payload.lean ====
/-
  What the kernel body stores, read at one entry of its block.

  At a grid point the body holds a [1024, 256] block `a` of the first point set, a [256, 2048] slice `bT` of the
  second one transposed, a [1024, 1] column `s1` of row norms and a [1, 2048] row `s2` of column norms, and stores

      broadcast s1 + broadcast s2 - 2 * (a ⬝ bT)

  where the product is accumulated from a zero block. At `(r, q)` of the block the column broadcast reads
  `s1 (r, 0)`, the row broadcast reads `s2 (0, q)`, and on the extended reals the product from zero is the plain sum
  `∑ k, a (r, k) * bT (k, q)`: the contraction runs over the second axis of `a` and the first of `bT`, so the left
  factor keeps the row and the right factor keeps the column.
-/
import proofs.«113122_j1580547968539_2_alg».proof.Proof.Gen.KernelIdeal.Skeleton
import proofs.«113122_j1580547968539_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Dist

/-- The block product's record of axes: left axis 1 against right axis 0. -/
abbrev D := dot_S1024x256_S256x2048_S1024x2048_1_0_0_1_n_n

/-- The left factor's row is the entry's row. -/
theorem lhs_row (j : S1024x2048.Idx) (p : D.contr.Idx) : (D.lhsIdx j p 0).val = (j 0).val := by
  unfold DotDims.lhsIdx
  rw [dif_neg (show ¬(0 : Fin S1024x256.rank) ∈ D.lhsBatch by decide),
    dif_pos (show (0 : Fin S1024x256.rank) ∈ D.lhsNonContracting by decide)]
  rfl

/-- The left factor's column is the summation index. -/
theorem lhs_col (j : S1024x2048.Idx) (p : D.contr.Idx) : (D.lhsIdx j p 1).val = (p ⟨0, by decide⟩).val :=
  D.lhsIdx_val_of_single rfl j p

/-- The right factor's row is the summation index. -/
theorem rhs_row (j : S1024x2048.Idx) (p : D.contr.Idx) : (D.rhsIdx j p 0).val = (p ⟨0, by decide⟩).val :=
  D.rhsIdx_val_of_single rfl j p

/-- The right factor's column is the entry's column. -/
theorem rhs_col (j : S1024x2048.Idx) (p : D.contr.Idx) : (D.rhsIdx j p 1).val = (j 1).val := by
  unfold DotDims.rhsIdx
  rw [dif_neg (show ¬(1 : Fin S256x2048.rank) ∈ D.rhsBatch by decide),
    dif_pos (show (1 : Fin S256x2048.rank) ∈ D.rhsNonContracting by decide)]
  rfl

/-- The block product from a zero accumulator, at `(r, q)`: the inner product of row `r` of the left block with
    column `q` of the right one. -/
theorem cross_apply (l : FVec Ideal S1024x256 .bf16) (rr : FVec Ideal S256x2048 .bf16) (r : Fin 1024) (q : Fin 2048) :
    matmul D none l rr (constant (F := Ideal) S1024x2048 .f32 0x00000000#32) (ix2 r q)
      = ∑ k : Fin 256, l (ix2 r k) * rr (ix2 k q) := by
  show FloatOps.matmul D none l rr (constant (F := Ideal) S1024x2048 .f32 0x00000000#32) (ix2 r q) = _
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 r q) ((contrEquiv1 D 256 rfl rfl).symm k) = ix2 r k := funext fun a => Fin.ext (by
    match a with
    | ⟨0, _⟩ => exact lhs_row _ _
    | ⟨1, _⟩ => exact (lhs_col _ _).trans hk)
  have er : D.rhsIdx (ix2 r q) ((contrEquiv1 D 256 rfl rfl).symm k) = ix2 k q := funext fun a => Fin.ext (by
    match a with
    | ⟨0, _⟩ => exact (rhs_row _ _).trans hk
    | ⟨1, _⟩ => exact rhs_col _ _)
  rw [el, er]

/-- The norm column broadcast along the rows of the block reads its row's entry. -/
theorem bcast_col (s : FVec Ideal S1024x1 .f32) (r : Fin 1024) (q : Fin 2048) :
    broadcastTo S1024x2048 s broadcasts_S1024x1_S1024x2048 (ix2 r q) = s (ix2 r (0 : Fin 1)) :=
  broadcastTo_apply s broadcasts_S1024x1_S1024x2048 (ix2 r q) (ix2 r (0 : Fin 1)) fun a => by
    match a with
    | ⟨0, _⟩ => show r.val = if (1024 : Nat) = 1 then 0 else r.val; rw [if_neg (by decide)]
    | ⟨1, _⟩ => show 0 = if (1 : Nat) = 1 then 0 else q.val; rw [if_pos rfl]

/-- The norm row broadcast along the columns of the block reads its column's entry. -/
theorem bcast_row (s : FVec Ideal S1x2048 .f32) (r : Fin 1024) (q : Fin 2048) :
    broadcastTo S1024x2048 s broadcasts_S1x2048_S1024x2048 (ix2 r q) = s (ix2 (0 : Fin 1) q) :=
  broadcastTo_apply s broadcasts_S1x2048_S1024x2048 (ix2 r q) (ix2 (0 : Fin 1) q) fun a => by
    match a with
    | ⟨0, _⟩ => show 0 = if (1 : Nat) = 1 then 0 else r.val; rw [if_pos rfl]
    | ⟨1, _⟩ => show q.val = if (2048 : Nat) = 1 then 0 else q.val; rw [if_neg (by decide)]

/-- THE STORED BLOCK AT `(r, q)`: the row's norm plus the column's norm, minus twice the inner product of row `r`
    of the point block with column `q` of the transposed slice. -/
theorem pay_apply (bT : Vec Ideal S256x2048 .bf16) (a : Vec Ideal S1024x256 .bf16) (s1 : Vec Ideal S1024x1 .f32)
    (s2 : Vec Ideal S1x2048 .f32) (r : Fin 1024) (q : Fin 2048) :
    k0_pay1 (F := Ideal) bT a s1 s2 (ix2 r q)
      = (s1 (ix2 r (0 : Fin 1)) + s2 (ix2 (0 : Fin 1) q)) - two * ∑ k : Fin 256, a (ix2 r k) * bT (ix2 k q) := by
  unfold k0_pay1
  simp only [shapeCast_self]
  rw [subf_apply, addf_apply, mulf_apply, broadcast_apply, bcast_col, bcast_row]
  exact congrArg (fun z => (s1 (ix2 r (0 : Fin 1)) + s2 (ix2 (0 : Fin 1) q)) - two * z) (cross_apply a bT r q)

end Cert.KernelIdeal.Payload

end
-- ==== Proof.Piece.lean ====
/-
  What one run of the kernel body leaves in the output's staging buffer.

  The body makes one store, through the whole [1024, 2048] block, of its arithmetic applied to four loads: the
  point block, the norm column and the norm row through their whole buffers, and the transposed point set through
  the [256, 2048] rectangle whose column offset the grid point's second coordinate fixes. A store through the
  whole block leaves its payload whatever was there before, and a load through a whole buffer reads its contents;
  so the buffer ends holding the arithmetic of the three whole inputs and of that one rectangle of the fourth.
-/
import proofs.«113122_j1580547968539_2_alg».proof.Proof.Gen.KernelIdeal.Frame
import Idealize.ShloMosaic.Lib.Pipeline.Value
import Idealize.ShloMosaic.Lib.Tactic

noncomputable section

namespace Cert.KernelIdeal.Piece

open Cert.KernelIdeal Cert.KernelIdeal.Gen Idealize.ShloMosaic Idealize.ShloMosaic.TcCoe Idealize.SL.Sem
open Idealize.ShloMosaic.Tactic

variable {F : FTy → Type} [FloatOps F]

/-- The zero offsets of a whole-block access, as the constant function. -/
theorem hz : (![0, 0] : Fin 2 → Nat) = fun _ => 0 := funext fun a => by fin_cases a <;> rfl

/-- The slice of the resident transposed point set the body multiplies by at grid coordinates `i`: its
    [256, 2048] rectangle at the point's column offset. -/
abbrev slice (i : grid0.Coords) (x1 : Vec F S256x8192 .bf16) : Vec F S256x2048 .bf16 :=
  View.ld x1 (Rect.unit (s := S256x8192) (k0_off1 i) S256x2048.size (k0_off1_inb i))

/-- The output's staging buffer after the body: the body's arithmetic of the point block `x0`, the slice of `x1`,
    the norm column `x2` and the norm row `x3`. -/
theorem out_eq (c : Dev nD) (i : grid0.Coords) (arg2 : Memref sig .tc .vmem S1024x256 .bf16) (harg2 : arg2.IsWhole)
    (arg3 : Memref sig .tc .vmem S256x8192 .bf16) (harg3 : arg3.IsWhole) (arg4 : Memref sig .tc .vmem S1024x1 .f32) (harg4 : arg4.IsWhole)
    (arg5 : Memref sig .tc .vmem S1x2048 .f32) (harg5 : arg5.IsWhole) (arg6 : Memref sig .tc .vmem S1024x2048 .f32) (harg6 : arg6.IsWhole)
    (x0 : Vec F S1024x256 .bf16) (x1 : Vec F S256x8192 .bf16) (x2 : Vec F S1024x1 .f32) (x3 : Vec F S1x2048 .f32) :
    out0_A_4 c i arg2 harg2 arg3 harg3 arg4 harg4 arg5 harg5 arg6 harg6 x0 x1 x2 x3 = k0_pay1 (slice i x1) x0 x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero hz]
  simp only [View.readAt_eq_ld, harg2.read_unread, harg3.read_unread, harg4.read_unread, harg5.read_unread,
    View.ld_unit_zero (S := S1024x256) hz, View.ld_unit_zero (S := S1024x1) hz, View.ld_unit_zero (S := S1x2048) hz]

end Cert.KernelIdeal.Piece

end
-- ==== Proof.Entry.lean ====
/-
  One stored entry is one entry of the distance matrix.

  Fix a grid point with block coordinates `(bi, bj)`: its output block is rows `1024 bi ..` and columns `2048 bj ..`
  of the [16384, 8192] matrix. Suppose the point block `x0` holds rows `1024 bi ..` of `A`, the norm column `x2` the
  same rows of `S1`, the norm row `x3` columns `2048 bj ..` of `S2`, and the resident array `x1` the transpose of
  `B`. The body multiplies by the slice of `x1` at column offset `2048 bj` — the offset is `2048` times the point's
  second grid coordinate —, so the slice at `(k, q)` is `B (2048 bj + q, k)`. Then what the body stores at `(r, q)` is

      (S1 (1024 bi + r, 0) + S2 (0, 2048 bj + q)) - 2 * ∑ k, A (1024 bi + r, k) * B (2048 bj + q, k),

  the distance matrix at `(1024 bi + r, 2048 bj + q)`. Everything here is over variables: no window, no memory.
-/
import proofs.«113122_j1580547968539_2_alg».proof.Proof.Payload
import proofs.«113122_j1580547968539_2_alg».proof.Proof.Piece

noncomputable section

open scoped BigOperators

namespace Cert.KernelIdeal.Entry

open Cert.KernelIdeal Cert.KernelIdeal.Gen Idealize.ShloMosaic Idealize.ShloMosaic.ValueIdx Cert.Dist

/-- Where the slice at grid coordinates `gi` reads the resident array: same row, column moved by `2048` times the
    second grid coordinate. -/
theorem slice_idx (gi : grid0.Coords) (bj : Nat) (hbj : bj < 4) (hgi : (gi 1).val = bj) (k : Fin 256) (q : Fin 2048) :
    (Rect.unit (s := S256x8192) (k0_off1 gi) S256x2048.size (k0_off1_inb gi)).idx (ix2 k q)
      = ix2 k (⟨bj * 2048 + q.val, by omega⟩ : Fin 8192) := by
  funext a
  apply Fin.ext
  match a with
  | ⟨0, _⟩ =>
    show k0_off1 gi 0 + 1 * k.val = k.val
    rw [k0_off1_eq]
    show 0 + 1 * k.val = k.val
    omega
  | ⟨1, _⟩ =>
    show k0_off1 gi 1 + 1 * q.val = bj * 2048 + q.val
    rw [k0_off1_eq]
    show 2048 * (gi 1).val + 1 * q.val = bj * 2048 + q.val
    omega

/-- THE ENTRY: under the four block-read hypotheses, the stored value at `(r, q)` is the distance matrix's entry at
    row `1024 bi + r`, column `2048 bj + q`. -/
theorem entry_eq (S1 : (⟨2, ![16384, 1]⟩ : Shape).Idx → EReal) (S2 : (⟨2, ![1, 8192]⟩ : Shape).Idx → EReal)
    (A : (⟨2, ![16384, 256]⟩ : Shape).Idx → EReal) (B : (⟨2, ![8192, 256]⟩ : Shape).Idx → EReal)
    (x0 : Vec Ideal S1024x256 .bf16) (x1 : Vec Ideal S256x8192 .bf16) (x2 : Vec Ideal S1024x1 .f32) (x3 : Vec Ideal S1x2048 .f32)
    (gi : grid0.Coords) (bi bj : Nat) (hbi : bi < 16) (hbj : bj < 4) (hgi : (gi 1).val = bj)
    (h0 : ∀ (r : Fin 1024) (k : Fin 256), x0 (ix2 r k) = A (ix2 (⟨bi * 1024 + r.val, by omega⟩ : Fin 16384) k))
    (h1 : ∀ (k : Fin 256) (n : Fin 8192), x1 (ix2 k n) = B (ix2 n k))
    (h2 : ∀ r : Fin 1024, x2 (ix2 r (0 : Fin 1)) = S1 (ix2 (⟨bi * 1024 + r.val, by omega⟩ : Fin 16384) (0 : Fin 1)))
    (h3 : ∀ q : Fin 2048, x3 (ix2 (0 : Fin 1) q) = S2 (ix2 (0 : Fin 1) (⟨bj * 2048 + q.val, by omega⟩ : Fin 8192)))
    (r : Fin 1024) (q : Fin 2048) :
    k0_pay1 (F := Ideal) (Piece.slice gi x1) x0 x2 x3 (ix2 r q)
      = distAt S1 S2 A B (⟨bi * 1024 + r.val, by omega⟩ : Fin 16384) (⟨bj * 2048 + q.val, by omega⟩ : Fin 8192) := by
  rw [Payload.pay_apply, h2, h3]
  unfold distAt
  refine congrArg (fun z => (S1 _ + S2 _) - two * z) (Finset.sum_congr rfl fun k _ => ?_)
  rw [h0]
  refine congrArg (A _ * ·) ?_
  show x1 ((Rect.unit (s := S256x8192) (k0_off1 gi) S256x2048.size (k0_off1_inb gi)).idx (ix2 k q)) = _
  rw [slice_idx gi bj hbj hgi k q, h1]

end Cert.KernelIdeal.Entry

end
-- ==== Proof.HostPrefix.lean ====
/-
  The four arrays the kernel's windows stage, as the host operations before the region leave them.

  Before the region @main computes, from the two point sets `A : [16384, 256]` and `B : [8192, 256]`:
    * the row norms of `A` as a [16384, 1] column: the sum along each row of `A * A`, from zero, given a unit axis;
    * the row norms of `B` as a [1, 8192] row, likewise;
    * `A` itself in the narrower float format, which at the ideal values is `A`;
    * `B` transposed to [256, 8192] and then narrowed, which at the ideal values reads `B (n, k)` at `(k, n)`.
  The two norm arrays are only named here (`normCol`, `normRow`): nothing downstream looks inside them.
-/
import proofs.«113122_j1580547968539_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The squared row norms of the first point set, as a column: `∑ₖ A (n, k)²` from zero, at `(n, 0)`. -/
def normCol (A : (⟨S16384x256, .f32⟩ : BufTy).Contents (Elt F)) : (⟨S16384x1, .f32⟩ : BufTy).Contents (Elt F) :=
  broadcastInDim S16384x1 ![0] bcast_S16384_S16384x1_0
    (Host.reduceAdd (mulf A A) (constant (F := F) S_ .f32 0x00000000#32) reducesTo_S16384x256_S16384_d1 h_S_)

/-- The squared row norms of the second point set, as a row: `∑ₖ B (n, k)²` from zero, at `(0, n)`. -/
def normRow (B : (⟨S8192x256, .f32⟩ : BufTy).Contents (Elt F)) : (⟨S1x8192, .f32⟩ : BufTy).Contents (Elt F) :=
  broadcastInDim S1x8192 ![1] bcast_S8192_S1x8192_1
    (Host.reduceAdd (mulf B B) (constant (F := F) S_ .f32 0x00000000#32) reducesTo_S8192x256_S8192_d1 h_S_)

/-- The region finds the norm column of the first argument in the buffer window 2 stages. -/
theorem V_normCol (c : Dev nD) :
    (V m c main_v2 : S16384x1.Idx → Elt F .f32) = normCol (m ((c : Thread nD τ).loc main_arg0)) := by
  unfold normCol
  dsimp only [Gen.V, Gen.hostOps0]
  after_results

/-- The region finds the norm row of the second argument in the buffer window 3 stages. -/
theorem V_normRow (c : Dev nD) :
    (V m c main_v5 : S1x8192.Idx → Elt F .f32) = normRow (m ((c : Thread nD τ).loc main_arg1)) := by
  unfold normRow
  dsimp only [Gen.V, Gen.hostOps0]
  after_results

/-- Window 0's array is the first argument narrowed. -/
theorem V_narrowA (c : Dev nD) :
    (V m c main_v6 : S16384x256.Idx → Elt F .bf16) = truncf .bf16 (m ((c : Thread nD τ).loc main_arg0)) bitsLt_bf16_f32 := by
  dsimp only [Gen.V, Gen.hostOps0]
  after_results

/-- Window 1's array is the second argument transposed, then narrowed. -/
theorem V_narrowBT (c : Dev nD) :
    (V m c main_v8 : S256x8192.Idx → Elt F .bf16)
      = truncf .bf16 (transpose S256x8192 [1, 0] (m ((c : Thread nD τ).loc main_arg1)) transposes_S8192x256_S256x8192_1_0) bitsLt_bf16_f32 := by
  dsimp only [Gen.V, Gen.hostOps0]
  after_results

end Cert.KernelIdeal.HostPrefix

/-! ## The two copies of the point sets, read at an index at the ideal values -/

namespace Cert.KernelIdeal.HostPrefix

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- At the ideal values the narrowed first point set reads the point set. -/
theorem narrowA_apply (c : Dev nD) (n : Fin 16384) (k : Fin 256) :
    (V m c main_v6 : S16384x256.Idx → EReal) (ix2 n k) = (m ((c : Thread nD τ).loc main_arg0) : S16384x256.Idx → EReal) (ix2 n k) := by
  rw [V_narrowA]
  rfl

/-- At the ideal values the transposed, narrowed second point set reads, at `(k, n)`, the point set at `(n, k)`. -/
theorem narrowBT_apply (c : Dev nD) (k : Fin 256) (n : Fin 8192) :
    (V m c main_v8 : S256x8192.Idx → EReal) (ix2 k n) = (m ((c : Thread nD τ).loc main_arg1) : S8192x256.Idx → EReal) (ix2 n k) := by
  rw [V_narrowBT]
  exact transpose_ix2_apply (m ((c : Thread nD τ).loc main_arg1) : S8192x256.Idx → EReal) transposes_S8192x256_S256x8192_1_0 k n

end Cert.KernelIdeal.HostPrefix

end
-- ==== Proof.Blocks.lean ====
/-
  From the blocks the grid points write back to the whole result array.

  The grid is 16 × 4. Point `t` with block coordinates `(bi, bj)` stages rows `1024 bi ..` of the narrowed first
  point set and of the norm column, columns `2048 bj ..` of the norm row, and the whole transposed second point
  set; it writes back the [1024, 2048] block at rows `1024 bi ..`, columns `2048 bj ..` of the result. By the entry
  lemma each written entry is the distance matrix's entry at its place in the array, so what point `t` writes back
  is block `t` of the distance matrix (`flushed_eq`). Every point writes back, and the 64 blocks tile the array —
  the block holding `(n, m)` is the one with `bi = n / 1024`, `bj = m / 2048` — so the array ends holding the
  distance matrix (`final`), and the kernel's run ends with it in the result buffer (`run`).
-/
import proofs.«113122_j1580547968539_2_alg».proof.Proof.Gen.KernelIdeal.Value
import proofs.«113122_j1580547968539_2_alg».proof.Proof.Entry
import proofs.«113122_j1580547968539_2_alg».proof.Proof.HostPrefix

noncomputable section

namespace Cert.KernelIdeal.Blocks

open Cert.KernelIdeal Cert.KernelIdeal.Gen Idealize.ShloMosaic Idealize.ShloMosaic.TcCoe Idealize.SL.Sem
open Idealize.ShloMosaic.ValueIdx Cert.Dist
open Idealize.ShloMosaic.Pipeline (Dat)

variable (m : (ℓ : Loc nD τ sig) → Buf (Elt Ideal) ℓ) (ρ : Dev nD → PrngReg)

/-- The distance matrix of core `c`'s two argument arrays, with their own squared norms. -/
abbrev result (c : Dev nD) : S16384x8192.Idx → EReal :=
  dist (HostPrefix.normCol (F := Ideal) (m ((c : Thread nD τ).loc main_arg0)))
    (HostPrefix.normRow (F := Ideal) (m ((c : Thread nD τ).loc main_arg1)))
    (m ((c : Thread nD τ).loc main_arg0)) (m ((c : Thread nD τ).loc main_arg1))

/-- The printed index maps, decided over the 64 grid points: the point block and the norm column move with the
    output's rows, the norm row with its columns, the transposed point set stays; the output's block coordinates
    stay in their ranges, and the second one is the point's second grid coordinate. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) < 16 ∧ win0_4.index t (1 : Fin 2) < 4
    ∧ (grid0.coords t 1).val = win0_4.index t (1 : Fin 2) :=
  (by decide +kernel : ∀ t : Fin grid0.N, _)

/-- Every block of the 16 × 4 tiling is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- WHAT POINT `t` WRITES BACK is block `t` of the distance matrix. -/
theorem flushed_eq (c : Dev nD) (t : Fin cfg0.N) :
    (dats m 0 c).flushed 4 t = ((cfg0.win 4).blk t).view.read (Elt Ideal) (result m c) := by
  rw [Value.flushed4_A m c t, Piece.out_eq]
  obtain ⟨e00, e01, e10, e11, e20, e21, e30, e31, hb0, hb1, hg⟩ := idx_facts t
  funext j
  have hj0 : (j 0).val < 1024 := (j 0).isLt
  have hj1 : (j 1).val < 2048 := (j 1).isLt
  obtain ⟨r, q, rfl⟩ : ∃ (r : Fin 1024) (q : Fin 2048), j = ix2 r q := ⟨j 0, j 1, eq_ix2 j⟩
  show k0_pay1 (F := Ideal) (Piece.slice (grid0.coords t) (iblk m c 1 t)) (iblk m c 0 t) (iblk m c 2 t) (iblk m c 3 t) (ix2 r q)
    = result m c (((cfg0.win 4).blk t).view.emb (ix2 r q))
  have hemb : ((cfg0.win 4).blk t).view.emb (ix2 r q)
      = ix2 (⟨win0_4.index t (0 : Fin 2) * 1024 + r.val, by omega⟩ : Fin 16384) (⟨win0_4.index t (1 : Fin 2) * 2048 + q.val, by omega⟩ : Fin 8192) := by
    funext a
    apply Fin.ext
    match a with
    | ⟨0, _⟩ => show win0_4.index t (0 : Fin 2) * 1024 + 1 * r.val = win0_4.index t (0 : Fin 2) * 1024 + r.val; omega
    | ⟨1, _⟩ => show win0_4.index t (1 : Fin 2) * 2048 + 1 * q.val = win0_4.index t (1 : Fin 2) * 2048 + q.val; omega
  rw [hemb]
  show _ = distAt _ _ _ _ _ _
  refine Entry.entry_eq _ _ _ _ (iblk m c 0 t) (iblk m c 1 t) (iblk m c 2 t) (iblk m c 3 t) (grid0.coords t)
    (win0_4.index t (0 : Fin 2)) (win0_4.index t (1 : Fin 2)) hb0 hb1 hg ?_ ?_ ?_ ?_ r q
  · -- the point block: rows of the narrowed first point set, which reads the point set
    intro r k
    show V m c main_v6 (((cfg0.win 0).blk t).view.emb (ix2 r k)) = _
    have e : ((cfg0.win 0).blk t).view.emb (ix2 r k)
        = ix2 (⟨win0_4.index t (0 : Fin 2) * 1024 + r.val, by omega⟩ : Fin 16384) k := by
      funext a
      apply Fin.ext
      match a with
      | ⟨0, _⟩ => show win0_0.index t (0 : Fin 2) * 1024 + 1 * r.val = win0_4.index t (0 : Fin 2) * 1024 + r.val; omega
      | ⟨1, _⟩ => show win0_0.index t (1 : Fin 2) * 256 + 1 * k.val = k.val; omega
    rw [e]
    exact HostPrefix.narrowA_apply m c _ k
  · -- the resident array: the whole transposed second point set
    intro k n
    show V m c main_v8 (((cfg0.win 1).blk t).view.emb (ix2 k n)) = _
    have e : ((cfg0.win 1).blk t).view.emb (ix2 k n) = ix2 k n := by
      funext a
      apply Fin.ext
      match a with
      | ⟨0, _⟩ => show win0_1.index t (0 : Fin 2) * 256 + 1 * k.val = k.val; omega
      | ⟨1, _⟩ => show win0_1.index t (1 : Fin 2) * 8192 + 1 * n.val = n.val; omega
    rw [e]
    exact HostPrefix.narrowBT_apply m c k n
  · -- the norm column: rows of the first argument's norms
    intro r
    show V m c main_v2 (((cfg0.win 2).blk t).view.emb (ix2 r (0 : Fin 1))) = _
    have e : ((cfg0.win 2).blk t).view.emb (ix2 r (0 : Fin 1))
        = ix2 (⟨win0_4.index t (0 : Fin 2) * 1024 + r.val, by omega⟩ : Fin 16384) (0 : Fin 1) := by
      funext a
      apply Fin.ext
      match a with
      | ⟨0, _⟩ => show win0_2.index t (0 : Fin 2) * 1024 + 1 * r.val = win0_4.index t (0 : Fin 2) * 1024 + r.val; omega
      | ⟨1, _⟩ => show win0_2.index t (1 : Fin 2) * 1 + 1 * 0 = 0; omega
    rw [e, HostPrefix.V_normCol]
  · -- the norm row: columns of the second argument's norms
    intro q
    show V m c main_v5 (((cfg0.win 3).blk t).view.emb (ix2 (0 : Fin 1) q)) = _
    have e : ((cfg0.win 3).blk t).view.emb (ix2 (0 : Fin 1) q)
        = ix2 (0 : Fin 1) (⟨win0_4.index t (1 : Fin 2) * 2048 + q.val, by omega⟩ : Fin 8192) := by
      funext a
      apply Fin.ext
      match a with
      | ⟨0, _⟩ => show win0_3.index t (0 : Fin 2) * 1 + 1 * 0 = 0; omega
      | ⟨1, _⟩ => show win0_3.index t (1 : Fin 2) * 2048 + 1 * q.val = win0_4.index t (1 : Fin 2) * 2048 + q.val; omega
    rw [e, HostPrefix.V_normRow]

/-- An index of the array is in point `t`'s block iff each coordinate is in the block's range on its axis. -/
theorem mem_blk (t : Fin cfg0.N) (i : S16384x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v9).slice (win0_4.rect t)).set ↔ _
  rw [View.set_slice_whole, Rect.mem_set_unit]
  exact Iff.rfl

/-- THE COVER: every index of the array is in the block of the point whose block coordinates are its row over 1024
    and its column over 2048; that point writes back. -/
theorem cover (i : S16384x8192.Idx) :
    ∃ t : Fin cfg0.N, (cfg0.win 4).flush t = true ∧ i ∈ ((cfg0.win 4).blk t).view.set := by
  have hi0 : (i 0).val < 16384 := (i 0).isLt
  have hi1 : (i 1).val < 8192 := (i 1).isLt
  obtain ⟨t, ht⟩ := idx_onto ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 2048 ≤ (i 1).val ∧ (i 1).val < win0_4.index t (1 : Fin 2) * 2048 + 2048
    omega

/-- THE ARRAY after the run is the distance matrix. -/
theorem final (c : Dev nD) : (dats m 0 c).arrAt 4 cfg0.N = result m c :=
  (dats m 0 c).arrAt_eq_of_cover 4 (result m c) (fun t _ => flushed_eq m c t) cover

/-- The kernel's run, read: the result buffer ends holding the distance matrix of the arguments, the arguments
    unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefValue.lean ====
/-
  The reference's result is the distance matrix of the specification.

  The reference adds the row norms, broadcast along each row, to the column norms, broadcast along each column,
  and subtracts twice the contraction of the two point sets over their common axis. Read at an index `(n, m)`,
  the first broadcast reads the norm column at `(n, 0)`, the second the norm row at `(0, m)`, and the contraction
  is the sum over `k` of `x0 (n, k) * x1 (m, k)`: term by term the specification's entry. The norms themselves
  (a product, a sum along the rows, a reshaping broadcast) are left as the stages that compute them.
-/
import proofs.«113122_j1580547968539_2_alg».proof.Proof.Gen.ReferenceIdeal.Read
import proofs.«113122_j1580547968539_2_alg».proof.Proof.Spec

noncomputable section

open scoped BigOperators

namespace Cert.ReferenceIdeal.RefValue

open Cert.ReferenceIdeal Cert.ReferenceIdeal.Read Idealize.ShloMosaic Idealize.ShloMosaic.ValueIdx Cert.Dist

/-- Where the row broadcast reads the norm column: at the row's coordinate, column `0`. -/
theorem idx_row (i : S16384x8192.Idx) : idx_main_v7 i = ix2 (i 0) (0 : Fin 1) :=
  funext fun a => Fin.ext (by match a with | ⟨0, _⟩ => rfl | ⟨1, _⟩ => rfl)

/-- Where the column broadcast reads the norm row: at row `0`, the column's coordinate. -/
theorem idx_col (i : S16384x8192.Idx) : idx_main_v8 i = ix2 (0 : Fin 1) (i 1) :=
  funext fun a => Fin.ext (by match a with | ⟨0, _⟩ => rfl | ⟨1, _⟩ => rfl)

/-- The contraction's left factor at `(n, m)`, term `k`: the first point set at `(n, k)`. -/
theorem idx_lhs (i : S16384x8192.Idx) (k : Fin 256) : lidx_main_v5 i k = ix2 (i 0) k :=
  funext fun a => Fin.ext (by match a with | ⟨0, _⟩ => rfl | ⟨1, _⟩ => rfl)

/-- Its right factor: the second point set at `(m, k)`. -/
theorem idx_rhs (i : S16384x8192.Idx) (k : Fin 256) : ridx_main_v5 i k = ix2 (i 1) k :=
  funext fun a => Fin.ext (by match a with | ⟨0, _⟩ => rfl | ⟨1, _⟩ => rfl)

/-- The reference's last stage is the distance matrix of its own two norm stages and its two arguments. -/
theorem result_eq (x0 : (⟨S16384x256, .f32⟩ : BufTy).Contents (Elt Ideal)) (x1 : (⟨S8192x256, .f32⟩ : BufTy).Contents (Elt Ideal)) :
    val_main_v12 (F := Ideal) x0 x1 = dist (val_main_v2 (F := Ideal) x0) (val_main_v6 (F := Ideal) x1) x0 x1 := by
  funext i
  rw [val_main_v12_apply, val_main_v9_apply, val_main_v7_apply, val_main_v8_apply, val_main_v11_apply,
    val_main_v10_apply, val_main_cst_1_apply, val_main_v5_apply]
  simp only [idx_row, idx_col, idx_lhs, idx_rhs, Ideal.subf_def, Ideal.addf_def, Ideal.mulf_def, Ideal.ofBits_def]
  rfl

end Cert.ReferenceIdeal.RefValue

end
-- ==== Proof.lean ====
/-
  Squared pairwise distances, tiled on a 16 × 4 grid, against the one-line jnp formula: both are

      D (n, m) = (‖aₙ‖² + ‖bₘ‖²) - 2 aₙ·bₘ        (n < 16384, m < 8192, aₙ, bₘ ∈ ℝ²⁵⁶ extended)

  on the extended reals, with the same association, the same literal `2`, and the squared norms computed by the
  same host operations on the same arguments in both programs.

  The kernel computes the norms on the host, narrows the first point set and the transpose of the second to a
  shorter float format (the identity at the ideal values), and at grid point `(bi, bj)` stores the [1024, 2048]
  block `s1 + s2 - 2 (a ⬝ bT)` from a [1024, 256] block of points, the [256, 2048] slice of the resident transposed
  array at column `2048 bj`, and the matching pieces of the two norm arrays; the product accumulates from zero.
  The reference broadcasts the two norm arrays to the full matrix, contracts the two point sets over their common
  axis, and combines them in the same way.

  How the proof goes. `Spec` states the matrix as one function `dist s1 s2 a b` with the norms as opaque arrays.
  `RefValue` reads the reference's last stage at an index and finds `dist` of its own norm stages. On the kernel's
  side `Payload` reads the stored block at `(r, q)` (the product from zero is a plain sum over the contracted
  axis), `Piece` says the staging buffer ends holding that block, `HostPrefix` names what the host left in the four
  staged arrays, `Entry` joins these at one entry, and `Blocks` shows that every grid point writes back its block
  of `dist` and that the 64 blocks tile the array. No step moves a factor across a sum or cancels anything, so the
  finiteness of the inputs is never used. The three frames are the generated ones; the reference's is its
  generated run with the result forgotten. The ideal pass rewrote nothing, so `preserves` is `True`.
-/
import proofs.«113122_j1580547968539_2_alg».proof.Defs
import proofs.«113122_j1580547968539_2_alg».proof.Proof.Gen.Kernel
import proofs.«113122_j1580547968539_2_alg».proof.Proof.Gen.Kernel.Frame
import proofs.«113122_j1580547968539_2_alg».proof.Proof.Gen.KernelIdeal
import proofs.«113122_j1580547968539_2_alg».proof.Proof.Gen.KernelIdeal.Frame
import proofs.«113122_j1580547968539_2_alg».proof.Proof.Gen.KernelIdeal.Value
import proofs.«113122_j1580547968539_2_alg».proof.Proof.Gen.ReferenceIdeal
import proofs.«113122_j1580547968539_2_alg».proof.Proof.Gen.ReferenceIdeal.Run
import proofs.«113122_j1580547968539_2_alg».proof.Proof.Gen.ReferenceIdeal.Read
import proofs.«113122_j1580547968539_2_alg».proof.Proof.Gen.Pre_finite_inputs
import proofs.«113122_j1580547968539_2_alg».proof.Proof.Blocks
import proofs.«113122_j1580547968539_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's host prefix and the reference compute the norm column by the same three operations. -/
theorem normCol_eq (x0 : (⟨Cert.ReferenceIdeal.S16384x256, .f32⟩ : BufTy).Contents (Elt Ideal)) :
    Cert.ReferenceIdeal.Read.val_main_v2 (F := Ideal) x0 = Cert.KernelIdeal.HostPrefix.normCol (F := Ideal) x0 := rfl

/-- And the norm row. -/
theorem normRow_eq (x1 : (⟨Cert.ReferenceIdeal.S8192x256, .f32⟩ : BufTy).Contents (Elt Ideal)) :
    Cert.ReferenceIdeal.Read.val_main_v6 (F := Ideal) x1 = Cert.KernelIdeal.HostPrefix.normRow (F := Ideal) x1 := rfl

/-- From memories agreeing on the two point sets both programs end with the distance matrix of those point sets:
    the kernel's array block by block, the reference's last stage index by index. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2,
    normCol_eq, normRow_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
